-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : FVec F S8192x64 .f32) (main_arg2 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S2048x64 : Shape := ⟨2, ![2048, 64]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 19
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S1x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S1x8192, .f32⟩
  | .hbm, ⟨18, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S64, .f32⟩
  | .local _ .vmem, ⟨5, _⟩ => ⟨S1024x1, .f32⟩
  | .local _ .vmem, ⟨6, _⟩ => ⟨S1024x1, .f32⟩
  | .local _ .vmem, ⟨7, _⟩ => ⟨S1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x8192.size a
  hwx0_5 : ∀ i : grid0.Coords, EltTy.bits .f32 = 32 ∨ (Rect.block (s := S8192x8192) S1024x2048.size (cc0_transform_5 i) (hinb0_5 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64 : Shape := ⟨2, ![8192, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S1x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S8192x8192, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.LibRealLinear.lean ====
/-
  Linearity of a weighted aggregation on the extended reals, for entries that are real numbers.

  On the extended reals multiplication does not distribute over addition at the infinities, so a sum of products may
  be regrouped only where the numbers involved are reals. Here: `IsReal` (an extended real that is the coercion of a
  real), closed under products; the coercion of a finite sum of reals is the sum of the coercions (`coe_sum`); and the
  law `conv_eq` — for real weights w(e), real rows x(e, ·), a real row x(·), a real scalar d and a real column p(·),

      Σ_k ((0 + Σ_e [P e] w(e)·x(e,k)) + d·x(k)) · p(k)  =  (0 + Σ_e [P e] w(e)·Σ_k x(e,k)·p(k)) + d·Σ_k x(k)·p(k)

  (aggregate the selected rows, add a scaled row, then contract with a column = contract every row first, then
  aggregate and add), over any finite index types `Fin E`, `Fin K` and any decidable selection `P`.
-/
import Mathlib.Data.EReal.Operations
import Mathlib.Algebra.BigOperators.Fin
import Mathlib.Tactic.Ring
import Mathlib.Tactic.Choose

noncomputable section

namespace Cert.LibRealLinear

/-- An extended real that is a real number. -/
def IsReal (x : EReal) : Prop := ∃ r : ℝ, x = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem isReal_coe (r : ℝ) : IsReal (r : EReal) := ⟨r, rfl⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: aggregate, add the self term, then project = project, then aggregate and add the self term. -/
theorem conv_real {E K : ℕ} (P : Fin E → Prop) [DecidablePred P] (nrm : Fin E → ℝ) (xs : Fin E → Fin K → ℝ)
    (x : Fin K → ℝ) (d : ℝ) (w : Fin K → ℝ) :
    ∑ k, ((0 + ∑ e, if P e then nrm e * xs e k else 0) + d * x k) * w k
      = (0 + ∑ e, if P e then nrm e * ∑ k, xs e k * w k else 0) + d * ∑ k, x k * w k := by
  simp only [zero_add, add_mul, Finset.sum_add_distrib, Finset.sum_mul, Finset.mul_sum]
  congr 1
  · rw [Finset.sum_comm]
    refine Finset.sum_congr rfl fun e _ => ?_
    split_ifs
    · exact Finset.sum_congr rfl fun k _ => by ring
    · simp
  · exact Finset.sum_congr rfl fun k _ => by ring

/-- The same on the extended reals, for entries that are reals. -/
theorem conv_coe {E K : ℕ} (P : Fin E → Prop) [DecidablePred P] (nrm : Fin E → ℝ) (xs : Fin E → Fin K → ℝ)
    (x : Fin K → ℝ) (d : ℝ) (w : Fin K → ℝ) :
    ∑ k, (((0 : EReal) + ∑ e, if P e then (nrm e : EReal) * (xs e k : EReal) else 0) + (d : EReal) * (x k : EReal))
        * (w k : EReal)
      = ((0 : EReal) + ∑ e, if P e then (nrm e : EReal) * ∑ k, (xs e k : EReal) * (w k : EReal) else 0)
        + (d : EReal) * ∑ k, (x k : EReal) * (w k : EReal) := by
  have h := congrArg (fun r : ℝ => (r : EReal)) (conv_real P nrm xs x d w)
  simp only [coe_sum, EReal.coe_add, EReal.coe_mul, EReal.coe_zero, apply_ite (fun r : ℝ => (r : EReal))] at h
  exact h

/-- Aggregating feature rows and projecting, against projecting and aggregating: equal when every entry is a real. -/
theorem conv_eq {E K : ℕ} (P : Fin E → Prop) [DecidablePred P] (nrm : Fin E → EReal) (xs : Fin E → Fin K → EReal)
    (x : Fin K → EReal) (d : EReal) (w : Fin K → EReal)
    (hn : ∀ e, IsReal (nrm e)) (hxs : ∀ e k, IsReal (xs e k)) (hx : ∀ k, IsReal (x k)) (hd : IsReal d)
    (hw : ∀ k, IsReal (w k)) :
    ∑ k, (((0 : EReal) + ∑ e, if P e then nrm e * xs e k else 0) + d * x k) * w k
      = ((0 : EReal) + ∑ e, if P e then nrm e * ∑ k, xs e k * w k else 0) + d * ∑ k, x k * w k := by
  choose nr hnr using hn
  choose xr hxr using hxs
  choose x' hx' using hx
  obtain ⟨d', rfl⟩ := hd
  choose w' hw' using hw
  obtain rfl : nrm = fun e => (nr e : EReal) := funext hnr
  obtain rfl : xs = fun e k => (xr e k : EReal) := funext fun e => funext fun k => hxr e k
  obtain rfl : x = fun k => (x' k : EReal) := funext hx'
  obtain rfl : w = fun k => (w' k : EReal) := funext hw'
  exact conv_coe P nr xr x' d' w'

end Cert.LibRealLinear

end
-- ==== Proof.GaussGram.lean ====
/-
  The anisotropic Gaussian Gram matrix, as a function of its three argument arrays.

  For points x[n, ·], y[m, ·] in 64 coordinates and weights γ[·] the entry (n, m) is

      exp( −Σ_k γ_k (x_nk − y_mk)² ),

  computed by both programs through the expansion  Σ_k γ_k (x_nk − y_mk)² = a_n + b_m − 2 c_nm  with
  a_n = Σ_k (γ_k x_nk) x_nk,  b_m = Σ_k (γ_k y_mk) y_mk  (the weighted square norms) and
  c_nm = Σ_k x_nk (γ_k y_mk)  (the weighted cross term).  One program forms the exponent as (2 c − a) − b, the other as
  −((a + b) − 2 c).  On the extended reals the two agree as soon as a and b are real numbers, whatever c is:
  negation distributes over a sum only away from ∞ − ∞.  The norms are real when the arguments are.
-/
import Idealize.ShloMosaic.PureOps.Ideal.Laws
import Idealize.ShloMosaic.Lib.ValueIdx
import proofs.«170686_j65481071398073_2_alg».proof.Proof.LibRealLinear

noncomputable section

namespace Cert.GaussGram

open Idealize.ShloMosaic Idealize.ShloMosaic.ValueIdx
open Cert.LibRealLinear (IsReal)

/-- The points' shape [8192, 64], the weights' [64], the matrix's [8192, 8192]. -/
abbrev Pts : Shape := ⟨2, ![8192, 64]⟩
abbrev Wts : Shape := ⟨1, ![64]⟩
abbrev Mat : Shape := ⟨2, ![8192, 8192]⟩

/-- The weighted square norm of row n, as both programs sum it: 0 + Σ_k (γ_k · x_nk) · x_nk. -/
def wnorm (g : Wts.Idx → EReal) (x : Pts.Idx → EReal) (n : Fin 8192) : EReal :=
  Ideal.ofBits .f32 0x00000000#32 + ∑ k : Fin 64, g (ix1 k) * x (ix2 n k) * x (ix2 n k)

/-- The weighted cross term of rows n of x and m of y: Σ_k x_nk · (γ_k · y_mk). -/
def cross (g : Wts.Idx → EReal) (x y : Pts.Idx → EReal) (n m : Fin 8192) : EReal :=
  ∑ k : Fin 64, x (ix2 n k) * (g (ix1 k) * y (ix2 m k))

/-- The matrix with the exponent arranged (2 c − a) − b. -/
def gram (g : Wts.Idx → EReal) (x y : Pts.Idx → EReal) : Mat.Idx → EReal := fun i =>
  Ideal.exp ((Ideal.ofBits .f32 0x40000000#32 * cross g x y (i 0) (i 1) - wnorm g x (i 0)) - wnorm g y (i 1))

/-- The matrix with the exponent arranged −((a + b) − 2 c). -/
def gramNeg (g : Wts.Idx → EReal) (x y : Pts.Idx → EReal) : Mat.Idx → EReal := fun i =>
  Ideal.exp (-((wnorm g x (i 0) + wnorm g y (i 1)) - Ideal.ofBits .f32 0x40000000#32 * cross g x y (i 0) (i 1)))

/-! ## Reals among the extended reals -/

theorem isReal_add {a b : EReal} (ha : IsReal a) (hb : IsReal b) : IsReal (a + b) := by
  obtain ⟨r, rfl⟩ := ha; obtain ⟨s, rfl⟩ := hb; exact ⟨r + s, (EReal.coe_add r s).symm⟩

theorem isReal_sum {ι : Type} (s : Finset ι) (f : ι → EReal) (hf : ∀ i ∈ s, IsReal (f i)) : IsReal (∑ i ∈ s, f i) :=
  Finset.sum_induction f IsReal (fun _ _ => isReal_add) ⟨0, rfl⟩ hf

/-- A weighted square norm of real entries is a real. -/
theorem wnorm_real {g : Wts.Idx → EReal} {x : Pts.Idx → EReal} (hg : ∀ i, IsReal (g i)) (hx : ∀ i, IsReal (x i))
    (n : Fin 8192) : IsReal (wnorm g x n) := by
  unfold wnorm
  rw [Ideal.ofBits_zero_f32]
  exact isReal_add ⟨0, rfl⟩ (isReal_sum _ _ fun k _ => ((hg _).mul (hx _)).mul (hx _))

/-! ## The two arrangements of the exponent -/

/-- For real a and b and ANY extended real d:  −((a + b) − d) = (d − a) − b. -/
theorem neg_sum_sub {a b d : EReal} (ha : IsReal a) (hb : IsReal b) : -((a + b) - d) = (d - a) - b := by
  obtain ⟨r, rfl⟩ := ha
  obtain ⟨s, rfl⟩ := hb
  induction d using EReal.rec with
  | bot => simp [← EReal.coe_add, sub_eq_add_neg]
  | coe t =>
    rw [← EReal.coe_add, ← EReal.coe_sub, ← EReal.coe_neg, ← EReal.coe_sub, ← EReal.coe_sub]
    exact congrArg _ (by ring)
  | top => simp [← EReal.coe_add, sub_eq_add_neg]

/-- The two arrangements give one matrix when the three arguments hold real numbers. -/
theorem gramNeg_eq_gram {g : Wts.Idx → EReal} {x y : Pts.Idx → EReal} (hg : ∀ i, IsReal (g i))
    (hx : ∀ i, IsReal (x i)) (hy : ∀ i, IsReal (y i)) : gramNeg g x y = gram g x y :=
  funext fun i => congrArg Ideal.exp (neg_sum_sub (wnorm_real hg hx (i 0)) (wnorm_real hg hy (i 1)))

end Cert.GaussGram

end
-- ==== Proof.HostNorm.lean ====
/-
  The weighted square norms as the host computes them, read at a row.

  The host lays the 64 weights along every row of the points ([64] → [1, 64] → [8192, 64]), multiplies by the points
  twice, and sums every row from zero.  Read exactly, row n of the result is  0 + Σ_k (γ_k · x_nk) · x_nk.
-/
import Idealize.ShloMosaic.Lib.Pipeline.Value
import Idealize.ShloMosaic.PureOps.Ideal.Laws
import proofs.«170686_j65481071398073_2_alg».proof.Proof.GaussGram

noncomputable section

namespace Cert.GaussGram

open Idealize.ShloMosaic Idealize.ShloMosaic.ValueIdx

/-- The weights laid along every row: entry (n, k) is γ_k. -/
theorem weightRows_apply
    (hb1 : Wts.BroadcastsInDim (⟨2, ![1, 64]⟩ : Shape) (![1] : Fin 1 → Fin 2))
    (hb2 : (⟨2, ![1, 64]⟩ : Shape).BroadcastsInDim Pts (![0, 1] : Fin 2 → Fin 2))
    (g : Wts.Idx → EReal) (n : Fin 8192) (k : Fin 64) :
    broadcastInDim Pts ![0, 1] hb2 (broadcastInDim (⟨2, ![1, 64]⟩ : Shape) ![1] hb1 g) (ix2 n k) = g (ix1 k) := by
  rw [broadcastInDim_apply _ hb2 _ (ix2 n k) (ix2 (0 : Fin 1) k) (fun a => match a with
      | ⟨0, _⟩ => by show 0 = if (1 : Nat) = 1 then 0 else n.val; rw [if_pos rfl]
      | ⟨1, _⟩ => by show k.val = if (64 : Nat) = 1 then 0 else k.val; rw [if_neg (by decide)]),
    broadcastInDim_apply _ hb1 g (ix2 (0 : Fin 1) k) (ix1 k) (fun a => match a with
      | ⟨0, _⟩ => by show k.val = if (64 : Nat) = 1 then 0 else k.val; rw [if_neg (by decide)])]

/-- Row n of the host's weighted square norms is `wnorm`. -/
theorem hostNorm_apply
    (hb1 : Wts.BroadcastsInDim (⟨2, ![1, 64]⟩ : Shape) (![1] : Fin 1 → Fin 2))
    (hb2 : (⟨2, ![1, 64]⟩ : Shape).BroadcastsInDim Pts (![0, 1] : Fin 2 → Fin 2))
    (hr : Pts.ReducesTo [1] (⟨1, ![8192]⟩ : Shape)) (h0 : 0 < (⟨0, ![]⟩ : Shape).numel)
    (g : FVec Ideal Wts .f32) (x : FVec Ideal Pts .f32) (n : Fin 8192) :
    Host.reduceAdd (F := Ideal)
        (mulf (F := Ideal) (mulf (F := Ideal) (broadcastInDim Pts ![0, 1] hb2 (broadcastInDim (⟨2, ![1, 64]⟩ : Shape) ![1] hb1 g)) x) x)
        (constant (F := Ideal) (⟨0, ![]⟩ : Shape) .f32 0x00000000#32) hr h0 (ix1 n)
      = wnorm g x n := by
  unfold wnorm
  generalize hy : mulf (F := Ideal) (mulf (F := Ideal) (broadcastInDim Pts ![0, 1] hb2 (broadcastInDim (⟨2, ![1, 64]⟩ : Shape) ![1] hb1 g)) x) x = y0
  simp only [Host.reduceAdd, Ideal.hostReduceAdd_def]
  rw [Ideal.hostReduceAdd_single hr (by decide)]
  refine congrArg (_ + ·) (Finset.sum_congr rfl fun k _ => ?_)
  subst hy
  refine (congrArg _ (funext fun a => Fin.ext (by match a with | ⟨0, _⟩ => rfl | ⟨1, _⟩ => rfl)) :
    _ = mulf (F := Ideal) (mulf (F := Ideal) (broadcastInDim Pts ![0, 1] hb2 (broadcastInDim (⟨2, ![1, 64]⟩ : Shape) ![1] hb1 g)) x) x (ix2 n k)).trans ?_
  exact congrArg (fun z : EReal => z * x (ix2 n k) * x (ix2 n k)) (weightRows_apply hb1 hb2 g n k)

end Cert.GaussGram

end
-- ==== Proof.LibRowsContract.lean ====
/-
  A product of rows read at one entry.

  For the dimension numbers of an [M, K] by [N, K] product that contracts the second axis of both operands (no batch
  axis) — every row of the left operand against every row of the right one — the sum over the contraction index that the
  exact product takes at result entry (p, q) is the sum over k < K of l[p, k] · r[q, k]. Stated for the sum itself, for a
  matrix unit's product into a zero accumulator, and for a host dot product, at the exact (extended real) reading of floats.
-/
import Idealize.ShloMosaic.PureOps.Ideal.Laws
import Idealize.ShloMosaic.Lib.ValueIdx

noncomputable section

namespace Cert.LibRowsContract

open Idealize.ShloMosaic Idealize.ShloMosaic.ValueIdx

/-- The dimension numbers of a product of rows: [M, K] with [N, K], both second axes contracted. -/
abbrev rowsDims (M K N : Nat) (h : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := h

variable (M K N : Nat) (h : DotDims.WF ⟨2, ![M, K]⟩ ⟨2, ![N, K]⟩ ⟨2, ![M, N]⟩ [1] [1] [0] [0] [] [])

/-- The contraction index has one axis, of extent K. -/
theorem rows_rank : (rowsDims M K N h).contr.rank = 1 := rfl
theorem rows_size : (rowsDims M K N h).contr.size ⟨0, Nat.one_pos⟩ = K := rfl

/-- At result entry (p, q) and contraction position k the left operand is read at (p, k) … -/
theorem rows_lhsIdx (p : Fin M) (q : Fin N) (k : Fin K) :
    (rowsDims M K N h).lhsIdx (ix2 p q) ((contrEquiv1 (rowsDims M K N h) K rfl rfl).symm k) = ix2 p k :=
  funext fun a => Fin.ext (by
    have hk := contrEquiv1_symm_val (rowsDims M K N h) K rfl rfl k
    match a with
    | ⟨0, _⟩ => rfl
    | ⟨1, _⟩ => exact ((rowsDims M K N h).lhsIdx_val_of_single rfl _ _).trans hk)

/-- … and the right operand at (q, k). -/
theorem rows_rhsIdx (p : Fin M) (q : Fin N) (k : Fin K) :
    (rowsDims M K N h).rhsIdx (ix2 p q) ((contrEquiv1 (rowsDims M K N h) K rfl rfl).symm k) = ix2 q k :=
  funext fun a => Fin.ext (by
    have hk := contrEquiv1_symm_val (rowsDims M K N h) K rfl rfl k
    match a with
    | ⟨0, _⟩ => rfl
    | ⟨1, _⟩ => exact ((rowsDims M K N h).rhsIdx_val_of_single rfl _ _).trans hk)

/-- The contraction sum at entry (p, q) is the sum over k of l[p, k] · r[q, k]. -/
theorem rows_sum (l : (⟨2, ![M, K]⟩ : Shape).Idx → EReal) (r : (⟨2, ![N, K]⟩ : Shape).Idx → EReal)
    (p : Fin M) (q : Fin N) :
    ∑ k : (rowsDims M K N h).contr.Idx,
        l ((rowsDims M K N h).lhsIdx (ix2 p q) k) * r ((rowsDims M K N h).rhsIdx (ix2 p q) k)
      = ∑ k : Fin K, l (ix2 p k) * r (ix2 q k) := by
  rw [← Equiv.sum_comp (contrEquiv1 (rowsDims M K N h) K rfl rfl).symm]
  refine Finset.sum_congr rfl fun k _ => ?_
  rw [rows_lhsIdx, rows_rhsIdx]

/-- A matrix unit's product of rows into the zero accumulator, at entry (p, q). -/
theorem matmul_rows_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (rowsDims M K N h) prec l r (constant ⟨2, ![M, N]⟩ .f32 0x00000000#32) (ix2 p q)
      = ∑ k : Fin K, l (ix2 p k) * r (ix2 q k) :=
  (Ideal.matmul_constant_zero_apply (rowsDims M K N h) prec l r (ix2 p q)).trans (rows_sum M K N h l r p q)

/-- A host dot product of rows, at entry (p, q). -/
theorem dotGeneral_rows_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (rowsDims M K N h) prec sched l r (ix2 p q) = ∑ k : Fin K, l (ix2 p k) * r (ix2 q k) :=
  (Ideal.dotGeneral_apply (rowsDims M K N h) prec sched l r (ix2 p q)).trans (rows_sum M K N h l r p q)

end Cert.LibRowsContract

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Tile.lean ====
/-
  One tile of the matrix: the value the tiled body stores at entry (p, q) of its [1024, 2048] block.

  The body holds 1024 rows of x, 2048 rows of y, the 64 weights, a column of 1024 square norms and a row of 2048
  square norms.  It scales every row of the y block by the weights, contracts the x rows against the scaled y rows over
  the 64 coordinates (a product of rows: both operands' second axes), doubles the result, subtracts the column spread
  over the 2048 columns, subtracts the row spread over the 1024 rows, and exponentiates.  Read exactly, the changes of
  float format are the identity, the product into a zero accumulator is the plain sum over the 64 coordinates, and the
  spreads read the column at its row and the row at its column.
-/
import proofs.«170686_j65481071398073_2_alg».proof.Proof.Gen.KernelIdeal.Skeleton
import Idealize.ShloMosaic.Lib.Pipeline.Value
import Idealize.ShloMosaic.Lib.ValueLayout
import Idealize.ShloMosaic.PureOps.Ideal.Laws
import proofs.«170686_j65481071398073_2_alg».proof.Proof.LibRowsContract
import proofs.«170686_j65481071398073_2_alg».proof.Proof.LibKeepdims

noncomputable section

namespace Cert.GaussGram.Tile

open Cert.KernelIdeal Cert.KernelIdeal.Gen Idealize.ShloMosaic Idealize.ShloMosaic.ValueIdx

/-- The weights laid along every row of the y block and multiplied in: entry (q, k) is γ_k · y_qk. -/
theorem scaled_apply (w : Vec Ideal S64 .f32) (yb : Vec Ideal S2048x64 .f32) (q : Fin 2048) (k : Fin 64) :
    mulf (F := Ideal) (φ := .f32) (broadcastTo S2048x64 (shapeCast S1x64 w Facts₀.shapeCasts_S64_S1x64) Facts₀.broadcasts_S1x64_S2048x64) yb (ix2 q k)
      = (w (ix1 k) : EReal) * yb (ix2 q k) := by
  show (broadcastTo S2048x64 (shapeCast S1x64 w Facts₀.shapeCasts_S64_S1x64) Facts₀.broadcasts_S1x64_S2048x64 (ix2 q k) : EReal) * yb (ix2 q k) = _
  rw [broadcastTo_1b_ab_apply, shapeCast_a_1a_apply]

/-- The column of square norms spread over the block's columns: entry (p, q) is the column at row p. -/
theorem column_apply (a : Vec Ideal S1024x1 .f32) (p : Fin 1024) (q : Fin 2048) :
    broadcastTo S1024x2048 (shapeCast S1024x1 a Facts₀.shapeCasts_S1024x1_S1024x1) Facts₀.broadcasts_S1024x1_S1024x2048 (ix2 p q)
      = a (ix2 p (0 : Fin 1)) := by
  rw [shapeCast_self, Cert.Lib.Keepdims.broadcastTo_a1_ab_apply]

/-- The row of square norms spread over the block's rows: entry (p, q) is the row at column q. -/
theorem row_apply (b : Vec Ideal S1x2048 .f32) (p : Fin 1024) (q : Fin 2048) :
    broadcastTo S1024x2048 (shapeCast S1x2048 b Facts₀.shapeCasts_S1x2048_S1x2048) Facts₀.broadcasts_S1x2048_S1024x2048 (ix2 p q)
      = b (ix2 (0 : Fin 1) q) := by
  rw [shapeCast_self, broadcastTo_1b_ab_apply]

/-- The stored value at entry (p, q):  exp( (2 · Σ_k x_pk · (γ_k · y_qk) − a_p) − b_q ). -/
theorem tile_apply (xb : Vec Ideal S1024x64 .f32) (yb : Vec Ideal S2048x64 .f32) (w : Vec Ideal S64 .f32)
    (a : Vec Ideal S1024x1 .f32) (b : Vec Ideal S1x2048 .f32) (p : Fin 1024) (q : Fin 2048) :
    k0_pay1 (F := Ideal) xb yb w a b (ix2 p q)
      = Ideal.exp ((Ideal.ofBits .f32 0x40000000#32 * (∑ k : Fin 64, xb (ix2 p k) * (w (ix1 k) * yb (ix2 q k)))
          - a (ix2 p (0 : Fin 1))) - b (ix2 (0 : Fin 1) q)) := by
  unfold k0_pay1
  refine congrArg Ideal.exp ?_
  refine congrArg₂ (· - ·) (congrArg₂ (· - ·) (congrArg (Ideal.ofBits .f32 0x40000000#32 * ·) ?_) ?_) ?_
  · refine (Cert.LibRowsContract.matmul_rows_apply 1024 64 2048 Facts₀.dot_S1024x64_S2048x64_S1024x2048_1_1_0_0_n_n_wf none _ _ p q).trans ?_
    exact Finset.sum_congr rfl fun k _ => congrArg (xb (ix2 p k) * ·) (scaled_apply w yb q k)
  · exact column_apply a p q
  · exact row_apply b p q

end Cert.GaussGram.Tile

end
-- ==== Proof.KernelGram.lean ====
/-
  The tiled program's result array is the matrix with the exponent arranged (2 c − a) − b.

  The grid has 8 × 4 points; point (i, j) holds rows 1024 i … 1024 i + 1023 of x and of the column of square norms of x,
  rows 2048 j … 2048 j + 2047 of y and that stretch of the row of square norms of y, and all 64 weights, and writes
  block (i, j) of the [8192, 8192] result.  The two arrays of square norms are written by the host before the grid
  starts: the column holds at (n, 0) the weighted square norm of row n of x, the row holds at (0, m) that of row m of y.
  So entry (p, q) of the block point (i, j) writes is entry (1024 i + p, 2048 j + q) of the matrix, and the 32 blocks
  tile the result.
-/
import proofs.«170686_j65481071398073_2_alg».proof.Proof.Gen.KernelIdeal.Value
import Idealize.ShloMosaic.Lib.Pipeline.Value
import Idealize.ShloMosaic.Lib.ValueLayout
import Idealize.ShloMosaic.Lib.StableHlo.Run
import proofs.«170686_j65481071398073_2_alg».proof.Proof.GaussGram
import proofs.«170686_j65481071398073_2_alg».proof.Proof.HostNorm
import proofs.«170686_j65481071398073_2_alg».proof.Proof.Tile
import proofs.«170686_j65481071398073_2_alg».proof.Proof.LibKeepdims

set_option maxRecDepth 16384

noncomputable section

namespace Cert.GaussGram.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The three argument arrays on core c: the points x, the points y, the weights. -/
abbrev X (c : Dev nD) : S8192x64.Idx → EReal := m ((c : Thread nD τ).loc main_arg0)
abbrev Y (c : Dev nD) : S8192x64.Idx → EReal := m ((c : Thread nD τ).loc main_arg1)
abbrev W (c : Dev nD) : S64.Idx → EReal := m ((c : Thread nD τ).loc main_arg2)

theorem hz2 : (![0, 0] : Fin 2 → Nat) = fun _ => 0 := funext fun a => by fin_cases a <;> rfl
theorem hz1 : (![0] : Fin 1 → Nat) = fun _ => 0 := funext fun a => by fin_cases a; rfl

/-! ## The two arrays the host writes before the grid starts -/

/-- The column of square norms of x holds, at (n, 0), the weighted square norm of row n of x. -/
theorem normColumn_apply (c : Dev nD) (n : Fin 8192) :
    (V m c main_v5 : S8192x1.Idx → EReal) (ix2 n (0 : Fin 1)) = wnorm (W m c) (X m c) n := by
  have e : (V m c main_v5 : S8192x1.Idx → EReal) = broadcastInDim S8192x1 ![0] Facts₀.bcast_S8192_S8192x1_0
      (Host.reduceAdd (F := Ideal) (mulf (F := Ideal) (mulf (F := Ideal)
        (broadcastInDim S8192x64 ![0, 1] Facts₀.bcast_S1x64_S8192x64_0_1 (broadcastInDim S1x64 ![1] Facts₀.bcast_S64_S1x64_1 (W m c)))
        (X m c)) (X m c)) (constant (F := Ideal) S_ .f32 0x00000000#32) Facts₀.reducesTo_S8192x64_S8192_d1 Facts₀.h_S_) := by
    dsimp only [V, hostOps0]; after_results
  rw [e, Cert.Lib.Keepdims.broadcastInDim_a_a1_apply]
  exact hostNorm_apply _ _ _ _ (W m c) (X m c) n

/-- The row of square norms of y (the column, transposed) holds, at (0, r), the weighted square norm of row r of y. -/
theorem normRow_apply (c : Dev nD) (r : Fin 8192) :
    (V m c main_v12 : S1x8192.Idx → EReal) (ix2 (0 : Fin 1) r) = wnorm (W m c) (Y m c) r := by
  have e : (V m c main_v12 : S1x8192.Idx → EReal) = transpose S1x8192 [1, 0] (broadcastInDim S8192x1 ![0] Facts₀.bcast_S8192_S8192x1_0
      (Host.reduceAdd (F := Ideal) (mulf (F := Ideal) (mulf (F := Ideal)
        (broadcastInDim S8192x64 ![0, 1] Facts₀.bcast_S1x64_S8192x64_0_1 (broadcastInDim S1x64 ![1] Facts₀.bcast_S64_S1x64_1 (W m c)))
        (Y m c)) (Y m c)) (constant (F := Ideal) S_ .f32 0x00000000#32) Facts₀.reducesTo_S8192x64_S8192_d1 Facts₀.h_S_))
      Facts₀.transposes_S8192x1_S1x8192_1_0 := by
    dsimp only [V, hostOps0]; after_results
  rw [e, transpose_ix2_apply, Cert.Lib.Keepdims.broadcastInDim_a_a1_apply]
  exact hostNorm_apply _ _ _ _ (W m c) (Y m c) r

/-! ## Where each block sits -/

/-- The printed index maps over the 32 points: the x block and the column block move with the result's row block, the
    y block and the row block with its column block, the weights stay. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 1) = 0
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 3 :=
  (by decide +kernel : ∀ t : Fin grid0.N, _)

/-- Every block of the result is some point's. -/
theorem index_onto : ∀ (q0 : Fin 8) (q1 : Fin 4), ∃ t : Fin cfg0.N, win0_5.index t = ![q0.val, q1.val] :=
  (by decide +kernel : ∀ (q0 : Fin 8) (q1 : Fin 4), ∃ t : Fin grid0.N, win0_5.index t = ![q0.val, q1.val])

/-- The array index of entry (p, q) of the block point t writes: (1024 i + p, 2048 j + q). -/
abbrev at5 (t : Fin cfg0.N) (p : Fin 1024) (q : Fin 2048) : S8192x8192.Idx := ((cfg0.win 5).blk t).view.emb (ix2 p q)

/-- Entry (p, k) of the x block at point t is x at the result's row. -/
theorem xBlock_apply (c : Dev nD) (t : Fin cfg0.N) (p : Fin 1024) (q : Fin 2048) (k : Fin 64) :
    (iblk m c 0 t : Vec Ideal S1024x64 .f32) (ix2 p k) = X m c (ix2 (at5 t p q 0) k) := by
  obtain ⟨e0, e1, -⟩ := index_facts t
  show V m c main_arg0 (((cfg0.win 0).blk t).view.emb (ix2 p k)) = _
  rw [V_main_arg0 m c]
  refine congrArg (m ((c : Thread nD τ).loc main_arg0)) (funext fun a => Fin.ext ?_)
  match a with
  | ⟨0, _⟩ => show win0_0.index t (0 : Fin 2) * 1024 + 1 * p.val = win0_5.index t (0 : Fin 2) * 1024 + 1 * p.val; omega
  | ⟨1, _⟩ => show win0_0.index t (1 : Fin 2) * 64 + 1 * k.val = k.val; omega

/-- Entry (q, k) of the y block at point t is y at the result's column. -/
theorem yBlock_apply (c : Dev nD) (t : Fin cfg0.N) (p : Fin 1024) (q : Fin 2048) (k : Fin 64) :
    (iblk m c 1 t : Vec Ideal S2048x64 .f32) (ix2 q k) = Y m c (ix2 (at5 t p q 1) k) := by
  obtain ⟨-, -, e2, e3, -⟩ := index_facts t
  show V m c main_arg1 (((cfg0.win 1).blk t).view.emb (ix2 q k)) = _
  rw [V_main_arg1 m c]
  refine congrArg (m ((c : Thread nD τ).loc main_arg1)) (funext fun a => Fin.ext ?_)
  match a with
  | ⟨0, _⟩ => show win0_1.index t (0 : Fin 2) * 2048 + 1 * q.val = win0_5.index t (1 : Fin 2) * 2048 + 1 * q.val; omega
  | ⟨1, _⟩ => show win0_1.index t (1 : Fin 2) * 64 + 1 * k.val = k.val; omega

/-- The weights' block is the weights. -/
theorem wBlock_apply (c : Dev nD) (t : Fin cfg0.N) (k : Fin 64) :
    (iblk m c 2 t : Vec Ideal S64 .f32) (ix1 k) = W m c (ix1 k) := by
  obtain ⟨-, -, -, -, e4, -⟩ := index_facts t
  show V m c main_arg2 (((cfg0.win 2).blk t).view.emb (ix1 k)) = _
  rw [V_main_arg2 m c]
  refine congrArg (m ((c : Thread nD τ).loc main_arg2)) (funext fun a => Fin.ext ?_)
  match a with
  | ⟨0, _⟩ => show win0_2.index t (0 : Fin 1) * 64 + 1 * k.val = k.val; omega

/-- Entry (p, 0) of the column block at point t is the weighted square norm of the result's row of x. -/
theorem columnBlock_apply (c : Dev nD) (t : Fin cfg0.N) (p : Fin 1024) (q : Fin 2048) :
    (iblk m c 3 t : Vec Ideal S1024x1 .f32) (ix2 p (0 : Fin 1)) = wnorm (W m c) (X m c) (at5 t p q 0) := by
  obtain ⟨-, -, -, -, -, e5, e6, -⟩ := index_facts t
  refine Eq.trans ?_ (normColumn_apply m c (at5 t p q 0))
  show V m c main_v5 (((cfg0.win 3).blk t).view.emb (ix2 p (0 : Fin 1))) = V m c main_v5 (ix2 (at5 t p q 0) (0 : Fin 1))
  refine congrArg (V m c main_v5) (funext fun a => Fin.ext ?_)
  match a with
  | ⟨0, _⟩ => show win0_3.index t (0 : Fin 2) * 1024 + 1 * p.val = win0_5.index t (0 : Fin 2) * 1024 + 1 * p.val; omega
  | ⟨1, _⟩ => show win0_3.index t (1 : Fin 2) * 1 + 1 * 0 = 0; omega

/-- Entry (0, q) of the row block at point t is the weighted square norm of the result's column's row of y. -/
theorem rowBlock_apply (c : Dev nD) (t : Fin cfg0.N) (p : Fin 1024) (q : Fin 2048) :
    (iblk m c 4 t : Vec Ideal S1x2048 .f32) (ix2 (0 : Fin 1) q) = wnorm (W m c) (Y m c) (at5 t p q 1) := by
  obtain ⟨-, -, -, -, -, -, -, e7, e8, -⟩ := index_facts t
  refine Eq.trans ?_ (normRow_apply m c (at5 t p q 1))
  show V m c main_v12 (((cfg0.win 4).blk t).view.emb (ix2 (0 : Fin 1) q)) = V m c main_v12 (ix2 (0 : Fin 1) (at5 t p q 1))
  refine congrArg (V m c main_v12) (funext fun a => Fin.ext ?_)
  match a with
  | ⟨0, _⟩ => show win0_4.index t (0 : Fin 2) * 1 + 1 * 0 = 0; omega
  | ⟨1, _⟩ => show win0_4.index t (1 : Fin 2) * 2048 + 1 * q.val = win0_5.index t (1 : Fin 2) * 2048 + 1 * q.val; omega

/-! ## What each point writes back, and the array after the run -/

/-- Point t writes back block t of the matrix. -/
theorem flushed_eq (c : Dev nD) (t : Fin cfg0.N) :
    (dats m 0 c).flushed 5 t = ((cfg0.win 5).blk t).view.read (Elt Ideal) (gram (W m c) (X m c) (Y m c)) := by
  rw [Cert.KernelIdeal.Value.flushed5]
  unfold out0_5
  rw [View.canon_unit_zero hz2]
  simp only [View.ld_unit_zero (S := S1024x64) hz2, View.ld_unit_zero (S := S2048x64) hz2, View.ld_unit_zero (S := S64) hz1,
    View.ld_unit_zero (S := S1024x1) hz2, View.ld_unit_zero (S := S1x2048) hz2]
  funext j
  obtain ⟨p, q, rfl⟩ : ∃ (p : Fin 1024) (q : Fin 2048), j = ix2 p q := ⟨j 0, j 1, eq_ix2 (n0 := 1024) (n1 := 2048) j⟩
  show k0_pay1 (F := Ideal) (iblk m c 0 t) (iblk m c 1 t) (iblk m c 2 t) (iblk m c 3 t) (iblk m c 4 t) (ix2 p q)
    = gram (W m c) (X m c) (Y m c) (at5 t p q)
  refine (Cert.GaussGram.Tile.tile_apply (iblk m c 0 t) (iblk m c 1 t) (iblk m c 2 t) (iblk m c 3 t) (iblk m c 4 t) p q).trans ?_
  simp only [xBlock_apply m c t p q, yBlock_apply m c t p q, wBlock_apply m c t, columnBlock_apply m c t p q,
    rowBlock_apply m c t p q]
  rfl

/-- An index of the result is in point t's block iff each coordinate is in the block's range on its axis. -/
theorem mem_block (t : Fin cfg0.N) (i : S8192x8192.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v13).slice (win0_5.rect t)).set ↔ _
  rw [View.set_slice_whole, Rect.mem_set_unit]
  exact Iff.rfl

/-- The 32 blocks cover the result: entry (r, s) is in block (r / 1024, s / 2048). -/
theorem cover (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := index_onto ⟨(i 0).val / 1024, by omega⟩ ⟨(i 1).val / 2048, by omega⟩
  have q0 : win0_5.index t (0 : Fin 2) = (i 0).val / 1024 := congrFun ht 0
  have q1 : win0_5.index t (1 : Fin 2) = (i 1).val / 2048 := congrFun ht 1
  refine ⟨t, flush0_5 t, ?_⟩
  rw [mem_block]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 2048 ≤ (i 1).val ∧ (i 1).val < win0_5.index t (1 : Fin 2) * 2048 + 2048; omega

/-- The result array after the run is the matrix. -/
theorem final (c : Dev nD) : (dats m 0 c).arrAt 5 cfg0.N = gram (W m c) (X m c) (Y m c) :=
  (dats m 0 c).arrAt_eq_of_cover 5 (gram (W m c) (X m c) (Y m c)) (fun t _ => flushed_eq m c t) cover

/-- The run, read: the result array at the matrix of the argument arrays, the arguments unchanged. -/
theorem run : θ_run defs (onTc (τ := τ) (main (F := Ideal))) ⟨m, fun _ => 0, ρ⟩ fun r => ∀ c : Dev nD,
      r.2.mem ((c : Thread nD τ).loc main_v13) = gram (W m c) (X m c) (Y m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.GaussGram.Kernel

end
-- ==== Proof.RefGram.lean ====
/-
  The reference program's result is the matrix with the exponent arranged −((a + b) − 2 c).

  Entry (n, m) of the reference's last stage is  exp(−((a_n + b_m) − 2 · c_nm))  where a and b are its two row sums
  (each 0 + Σ_k (γ_k · x_nk) · x_nk over the weights laid along the rows), spread down the columns and along the rows,
  and c is its product of rows of x against the weighted rows of y.  Every stage is read at an index from the stage
  before; what is left is to name the composed indices by their coordinates.
-/
import proofs.«170686_j65481071398073_2_alg».proof.Proof.Gen.ReferenceIdeal.Read
import proofs.«170686_j65481071398073_2_alg».proof.Proof.GaussGram

noncomputable section

namespace Cert.GaussGram.Ref

open Cert.ReferenceIdeal Cert.ReferenceIdeal.Read Idealize.ShloMosaic Idealize.ShloMosaic.ValueIdx

theorem result_eq (x0 x1 : (⟨S8192x64, .f32⟩ : BufTy).Contents (Elt Ideal)) (x2 : (⟨S64, .f32⟩ : BufTy).Contents (Elt Ideal)) :
    val_main_v23 (F := Ideal) x0 x1 x2 = gramNeg x2 x0 x1 := by
  funext i
  obtain ⟨n, m, rfl⟩ : ∃ (n m : Fin 8192), i = ix2 n m := ⟨i 0, i 1, eq_ix2 i⟩
  -- the composed indices, by coordinates
  have ea : ∀ k : Fin 64, idx_main_v4 (idx_main_v14 (idx_main_v16 (ix2 n m))) k = ix2 n k := fun k =>
    funext fun a => Fin.ext (by match a with | ⟨0, _⟩ => rfl | ⟨1, _⟩ => rfl)
  have eb : ∀ k : Fin 64, idx_main_v9 (idx_main_v15 (idx_main_v17 (ix2 n m))) k = ix2 m k := fun k =>
    funext fun a => Fin.ext (by match a with | ⟨0, _⟩ => rfl | ⟨1, _⟩ => rfl)
  have el : ∀ k : Fin 64, lidx_main_v13 (ix2 n m) k = ix2 n k := fun k =>
    funext fun a => Fin.ext (by match a with | ⟨0, _⟩ => rfl | ⟨1, _⟩ => rfl)
  have er : ∀ k : Fin 64, ridx_main_v13 (ix2 n m) k = ix2 m k := fun k =>
    funext fun a => Fin.ext (by match a with | ⟨0, _⟩ => rfl | ⟨1, _⟩ => rfl)
  have ew0 : ∀ (r : Fin 8192) (k : Fin 64), idx_main_v0 (idx_main_v1 (ix2 r k)) = ix1 k := fun r k =>
    funext fun a => Fin.ext (by match a with | ⟨0, _⟩ => rfl)
  have ew5 : ∀ (r : Fin 8192) (k : Fin 64), idx_main_v5 (idx_main_v6 (ix2 r k)) = ix1 k := fun r k =>
    funext fun a => Fin.ext (by match a with | ⟨0, _⟩ => rfl)
  have ew10 : ∀ (r : Fin 8192) (k : Fin 64), idx_main_v10 (idx_main_v11 (ix2 r k)) = ix1 k := fun r k =>
    funext fun a => Fin.ext (by match a with | ⟨0, _⟩ => rfl)
  rw [val_main_v23_apply, val_main_v22_apply, val_main_v21_apply, val_main_v18_apply, val_main_v20_apply,
    val_main_v16_apply, val_main_v14_apply, val_main_v4_apply, val_main_v17_apply, val_main_v15_apply, val_main_v9_apply,
    val_main_v19_apply, val_main_cst_1_apply, val_main_v13_apply]
  simp only [val_main_v3_apply, val_main_v2_apply, val_main_v1_apply, val_main_v0_apply, val_main_cst_apply,
    val_main_v8_apply, val_main_v7_apply, val_main_v6_apply, val_main_v5_apply, val_main_cst_0_apply,
    val_main_v12_apply, val_main_v11_apply, val_main_v10_apply, ea, eb, el, er, ew0, ew5, ew10,
    Ideal.mulf_def, Ideal.addf_def, Ideal.subf_def, Ideal.hostNegf_def, Ideal.negf_def, Ideal.hostUnary_exp_def,
    Ideal.ofBits_def]
  rfl

end Cert.GaussGram.Ref

end
-- ==== Proof.LibFiniteAll.lean ====
/-
  "Every entry of a float array has absolute value strictly below +∞", read back as "every entry is a real number".

  On the extended reals the absolute value of x is max x (−x); it equals +∞ exactly at the two infinities, so a
  strict bound |x| < +∞ leaves only the coercions of reals.  The word 0x7F800000 is the single-precision +∞, which
  is read as ⊤.  An array passes the test when the conjunction, over all of its indices, of the bits (|a i| < +∞) is 1;
  a conjunction that is 1 had a 1 at every index.  The statement is generic in the array's shape and in the list of
  axes folded away, as long as the result has a single index (the shape of rank 0).
-/
import Idealize.ShloMosaic.Lib.StableHlo
import Idealize.ShloMosaic.PureOps
import Idealize.ShloMosaic.Lib.ReduceAll
import Idealize.ShloMosaic.Lib.IdealHost
import proofs.«170686_j65481071398073_2_alg».proof.Proof.LibRealLinear

noncomputable section

namespace Cert.LibFiniteAll

open Idealize.ShloMosaic
open Cert.LibRealLinear (IsReal)

/-- The shape of rank 0 has exactly one index. -/
instance subsingleton_scalarIdx : Subsingleton (⟨0, ![]⟩ : Shape).Idx := ⟨fun a b => funext fun d => d.elim0⟩

/-- An extended real with max x (−x) < ⊤ is neither infinity, hence a real. -/
theorem isReal_of_abs_lt_top (x : EReal) (h : max x (-x) < ⊤) : IsReal x := by
  induction x using EReal.rec with
  | bot => simp at h
  | coe r => exact ⟨r, rfl⟩
  | top => simp at h

/-- The single-precision word of +∞ is read as ⊤. -/
theorem ofBits_inf_f32 : Ideal.ofBits .f32 0x7F800000#32 = ⊤ := by simp [Ideal.ofBits, Ideal.ieee]

/-- One value: if the ordered comparison |x| < +∞ answers 1, then x is a real. -/
theorem isReal_of_abs_olt_inf (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf_f32] at h'
  by_cases hlt : max (x : EReal) (-(x : EReal)) < ⊤
  · exact isReal_of_abs_lt_top x hlt
  · exfalso
    simp [Ideal.cmp, hlt] at h'

/-- One array: if the conjunction over all indices of (|a i| < +∞) is 1, every entry of a is a real. -/
theorem all_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (h : Host.reduce IntOp.andi
          (cmpf .olt (Host.absf a) (broadcastInDim s ![] hb (constant (⟨0, ![]⟩ : Shape) .f32 0x7F800000#32)))
          (constantI (⟨0, ![]⟩ : Shape) 1 1#1) hr h0 ValueIdx.ix0 = 1#1) :
    ∀ i, IsReal (a i) := by
  intro i
  have e := Host.reduce_andi_all _ _ hr h0 _ h i
  refine isReal_of_abs_olt_inf (a i) ?_
  have hbc : broadcastInDim s ![] hb (constant (F := Ideal) (⟨0, ![]⟩ : Shape) .f32 0x7F800000#32) i
      = FloatOps.ofBits (F := Ideal) .f32 0x7F800000#32 :=
    ValueIdx.broadcastInDim_scalar_apply hb _ i
  have e' : FloatOps.cmpf .olt (FloatOps.hostAbsf (a i))
      (broadcastInDim s ![] hb (constant (F := Ideal) (⟨0, ![]⟩ : Shape) .f32 0x7F800000#32) i) = 1#1 := e
  rw [hbc] at e'
  exact e'

/-- A conjunction of two bits of rank 0 that is 1: both are 1. -/
theorem andi_ix0 (x y : IVec (⟨0, ![]⟩ : Shape) 1) (h : andi x y ValueIdx.ix0 = 1#1) :
    x ValueIdx.ix0 = 1#1 ∧ y ValueIdx.ix0 = 1#1 :=
  IntOp.andi_eq_one.1 h

end Cert.LibFiniteAll

end
-- ==== Proof.FiniteArgs.lean ====
/-
  From the precondition to real numbers.

  The precondition is the conjunction of three tests, one per argument array: every entry has absolute value strictly
  below +∞.  A conjunction that is 1 has both parts 1, and an array that passes the test holds only real numbers.
-/
import proofs.«170686_j65481071398073_2_alg».proof.Pre_finite_inputs
import proofs.«170686_j65481071398073_2_alg».proof.Proof.Gen.Pre_finite_inputs
import proofs.«170686_j65481071398073_2_alg».proof.Proof.LibFiniteAll

noncomputable section

namespace Cert.GaussGram

open Idealize.ShloMosaic
open Cert.LibRealLinear (IsReal)

/-- Under the precondition the two point arrays and the weights hold real numbers. -/
theorem reals_of_finite (x y : FVec Ideal Cert.Pre_finite_inputs.S8192x64 .f32) (g : FVec Ideal Cert.Pre_finite_inputs.S64 .f32)
    (h : Cert.Pre_finite_inputs.fn (F := Ideal) x y g = fun _ => 1#1) :
    (∀ i, IsReal (x i)) ∧ (∀ i, IsReal (y i)) ∧ (∀ i, IsReal (g i)) := by
  have h0 := congrFun h ValueIdx.ix0
  dsimp only [Cert.Pre_finite_inputs.fn] at h0
  obtain ⟨hxy, hg⟩ := Cert.LibFiniteAll.andi_ix0 _ _ h0
  obtain ⟨hx, hy⟩ := Cert.LibFiniteAll.andi_ix0 _ _ hxy
  exact ⟨Cert.LibFiniteAll.all_real x _ _ _ hx, Cert.LibFiniteAll.all_real y _ _ _ hy,
    Cert.LibFiniteAll.all_real g _ _ _ hg⟩

end Cert.GaussGram

end
-- ==== Proof.lean ====
/- The anisotropic Gaussian Gram matrix  exp(−Σ_k γ_k (x_nk − y_mk)²)  of two sets of 8192 points in 64 coordinates:
   a program that tiles the [8192, 8192] result over an 8 × 4 grid, against a whole-array reference.

   Both expand the weighted square distance as a_n + b_m − 2 c_nm, with a and b the weighted square norms of the rows
   of x and of y and c the weighted cross term.  Read over the extended reals the two programs compute the same a, b and
   c (a product of rows into a zero accumulator is the plain sum; changes of float format are the identity); the tiled
   one forms the exponent as (2 c − a) − b and the reference as −((a + b) − 2 c).  These agree when a and b are real
   numbers, which they are when the arguments are finite: that is where the precondition is used.
   The tiled program's result array is read off its run block by block (KernelGram), the reference's result stage by
   stage (RefGram); GaussGram holds the matrix and the law joining the two arrangements. -/
import proofs.«170686_j65481071398073_2_alg».proof.Defs
import proofs.«170686_j65481071398073_2_alg».proof.Proof.Gen.Kernel
import proofs.«170686_j65481071398073_2_alg».proof.Proof.Gen.Kernel.Skeleton
import proofs.«170686_j65481071398073_2_alg».proof.Proof.Gen.Kernel.Launch
import proofs.«170686_j65481071398073_2_alg».proof.Proof.Gen.Kernel.Points
import proofs.«170686_j65481071398073_2_alg».proof.Proof.Gen.Kernel.Frame
import proofs.«170686_j65481071398073_2_alg».proof.Proof.Gen.KernelIdeal
import proofs.«170686_j65481071398073_2_alg».proof.Proof.Gen.KernelIdeal.Skeleton
import proofs.«170686_j65481071398073_2_alg».proof.Proof.Gen.KernelIdeal.Launch
import proofs.«170686_j65481071398073_2_alg».proof.Proof.Gen.KernelIdeal.Points
import proofs.«170686_j65481071398073_2_alg».proof.Proof.Gen.KernelIdeal.Frame
import proofs.«170686_j65481071398073_2_alg».proof.Proof.Gen.ReferenceIdeal
import proofs.«170686_j65481071398073_2_alg».proof.Proof.Gen.Pre_finite_inputs
import proofs.«170686_j65481071398073_2_alg».proof.Proof.Gen.KernelIdeal.Value
import proofs.«170686_j65481071398073_2_alg».proof.Proof.Gen.ReferenceIdeal.Run
import proofs.«170686_j65481071398073_2_alg».proof.Proof.Gen.ReferenceIdeal.Read
import proofs.«170686_j65481071398073_2_alg».proof.Proof.GaussGram
import proofs.«170686_j65481071398073_2_alg».proof.Proof.KernelGram
import proofs.«170686_j65481071398073_2_alg».proof.Proof.RefGram
import proofs.«170686_j65481071398073_2_alg».proof.Proof.FiniteArgs
import Idealize.ShloMosaic.Adequacy
import Idealize.ShloMosaic.Init

noncomputable section

namespace Cert.Proof

open Idealize.ShloMosaic Idealize.SL.Sem Cert.Kernel

/-- The reference has no grid: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the matrix in the arrangement (2 c − a) − b: the tiled one by its blocks, the reference
    because its arrangement −((a + b) − 2 c) is the same number once the arguments are real. -/
theorem algebraic : Cert.algebraic_KernelIdeal_ReferenceIdeal := by
  intro m ρ m' ρ' hpre hagree
  refine ⟨fun c => Cert.GaussGram.gram (Cert.GaussGram.Kernel.W m c) (Cert.GaussGram.Kernel.X m c) (Cert.GaussGram.Kernel.Y m c),
    Cert.GaussGram.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy, hg⟩ := Cert.GaussGram.reals_of_finite _ _ _ (hpre c)
  rw [Cert.ReferenceIdeal.Read.val_main_v23_eq, Cert.GaussGram.Ref.result_eq, (hagree c).1, (hagree c).2.1, (hagree c).2.2]
  exact Cert.GaussGram.gramNeg_eq_gram hg hx hy

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
